-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S_, .f32⟩
  | .hbm, ⟨53, _⟩ => ⟨S800000, .f32⟩
  | .hbm, ⟨54, _⟩ => ⟨S_, .f32⟩
  | .hbm, ⟨55, _⟩ => ⟨S50000, .f32⟩
  | .hbm, ⟨56, _⟩ => ⟨S800000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
import proofs.«122503_j82377472737678_1_alg».proof.Proof.Gen.KernelIdeal.Frame

/-!
# The kernel's run, with the result array named

The program is four segments: a stretch of host operations, the hidden layer's pallas_call, a second stretch of host
operations, the output layer's pallas_call. Every weakly fair execution ends with each unscoped buffer holding the
fold of the four segments from the launch memory (`W4`): the arguments as launched, and the result buffer at what
the second pipeline's write-backs leave. This module states that run with the result buffer's final contents as a
named term, beside the unchanged arguments; the later modules say what that term is.
-/

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents of it, and the arguments end as launched. -/
theorem run : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«122503_j82377472737678_1_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRowLayers.lean ====
import Idealize.ShloMosaic.Lib.ValueIdx
import Idealize.ShloMosaic.Lib.ValueLayout
import Idealize.ShloMosaic.Lib.Pipeline.Value
import Idealize.ShloMosaic.PureOps.Ideal.Laws
import proofs.«122503_j82377472737678_1_alg».proof.Proof.LibPlainDot
import proofs.«122503_j82377472737678_1_alg».proof.Proof.LibDenseTile

/-!
# The dense stages of a two-layer graph convolution, as whole-array functions

Over the extended reals a graph-convolution layer is: multiply every node's feature row by a weight matrix, send each
row along the edges scaled by the edge weight and add what arrives at each node, add a bias row, and (in the first
layer) keep the positive part. The edge step is the same on both sides of the comparison and is never opened here.
This file names the dense steps index by index, for any number of rows:

* `rowsTimes x w`: entry `(p, q)` is `∑ k, x (p, k) · w (k, q)`;
* `addRow y b`: entry `(p, q)` is `y (p, q) + b q`;
* `reluRow y b`: entry `(p, q)` is `max (y (p, q) + b q) 0`.

A product computed tile of rows by tile of rows and one computed on the whole array have the same entries, because an
entry only depends on its own row; likewise for the two bias steps. The matrix unit's product into a zero accumulator
and the host's `dot_general` are both `rowsTimes`.
-/

noncomputable section

namespace Cert.Layers

open Idealize.ShloMosaic Idealize.ShloMosaic.ValueIdx
open scoped BigOperators

/-- Offsets that are all zero, however they are spelt. -/
theorem zeros2 : (![0, 0] : Fin 2 → Nat) = fun _ => 0 := funext fun a => by fin_cases a <;> rfl
theorem zeros1 : (![0] : Fin 1 → Nat) = fun _ => 0 := funext fun a => by fin_cases a; rfl

variable {M K N : Nat}

/-- Every row of `x` times the matrix `w`. -/
def rowsTimes (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply (x : (⟨2, ![M, K]⟩ : Shape).Idx → EReal) (w : (⟨2, ![K, N]⟩ : Shape).Idx → EReal)
    (p : Fin M) (q : Fin N) : rowsTimes x w (ix2 p q) = ∑ k : Fin K, x (ix2 p k) * w (ix2 k q) := rfl

/-- The bias row `b` added to every row of `y`. -/
def addRow (y : (⟨2, ![M, N]⟩ : Shape).Idx → EReal) (b : (⟨1, ![N]⟩ : Shape).Idx → EReal) :
    (⟨2, ![M, N]⟩ : Shape).Idx → EReal :=
  fun i => y i + b (ix1 (i 1))

theorem addRow_apply (y : (⟨2, ![M, N]⟩ : Shape).Idx → EReal) (b : (⟨1, ![N]⟩ : Shape).Idx → EReal)
    (p : Fin M) (q : Fin N) : addRow y b (ix2 p q) = y (ix2 p q) + b (ix1 q) := rfl

/-- The positive part of `y` plus the bias row. -/
def reluRow (y : (⟨2, ![M, N]⟩ : Shape).Idx → EReal) (b : (⟨1, ![N]⟩ : Shape).Idx → EReal) :
    (⟨2, ![M, N]⟩ : Shape).Idx → EReal :=
  fun i => max (y i + b (ix1 (i 1))) 0

theorem reluRow_apply (y : (⟨2, ![M, N]⟩ : Shape).Idx → EReal) (b : (⟨1, ![N]⟩ : Shape).Idx → EReal)
    (p : Fin M) (q : Fin N) : reluRow y b (ix2 p q) = max (y (ix2 p q) + b (ix1 q)) 0 := rfl

/-- The matrix unit's product into a zero accumulator is `rowsTimes`, whatever float formats its operands carry. -/
theorem matmul_zero_eq {φ₁ φ₂ : FTy} (d : DotDims ⟨2, ![M, K]⟩ ⟨2, ![K, N]⟩ ⟨2, ![M, N]⟩) (h : LibPlainDot.Plain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = rowsTimes l r := by
  funext i
  obtain ⟨p, q, rfl⟩ : ∃ (p : Fin M) (q : Fin N), i = ix2 p q := ⟨i 0, i 1, eq_ix2 i⟩
  exact LibPlainDot.matmul_zero_apply d h prec l r p q

/-- The host's `dot_general` is `rowsTimes`. -/
theorem dotGeneral_eq {φ₁ φ₂ : FTy} (d : DotDims ⟨2, ![M, K]⟩ ⟨2, ![K, N]⟩ ⟨2, ![M, N]⟩) (h : LibPlainDot.Plain d)
    (prec : Option ContractPrecision) (sched : HostSchedule) (l : FVec Ideal ⟨2, ![M, K]⟩ φ₁) (r : FVec Ideal ⟨2, ![K, N]⟩ φ₂) :
    FloatOps.dotGeneral d prec sched l r = rowsTimes l r := by
  funext i
  obtain ⟨p, q, rfl⟩ : ∃ (p : Fin M) (q : Fin N), i = ix2 p q := ⟨i 0, i 1, eq_ix2 i⟩
  exact LibPlainDot.dotGeneral_apply d h prec sched l r p q

/-- A tile's rows plus a bias vector stood up as a row and repeated down the tile: entry `(p, q)` gets `b q`. -/
theorem tile_addBias_apply (y : FVec Ideal ⟨2, ![M, N]⟩ .f32) (b : FVec Ideal ⟨1, ![N]⟩ .f32)
    (hs : (⟨2, ![M, N]⟩ : Shape).ShapeCasts ⟨2, ![M, N]⟩)
    (hc : (⟨1, ![N]⟩ : Shape).ShapeCasts ⟨2, ![1, N]⟩) (hb : (⟨2, ![1, N]⟩ : Shape).Broadcasts ⟨2, ![M, N]⟩)
    (p : Fin M) (q : Fin N) :
    addf (shapeCast ⟨2, ![M, N]⟩ y hs) (broadcastTo ⟨2, ![M, N]⟩ (shapeCast ⟨2, ![1, N]⟩ b hc) hb) (ix2 p q)
      = y (ix2 p q) + b (ix1 q) := by
  rw [addf_apply, LibDenseTile.biasRows_apply b hc hb p q, shapeCast_self]

/-- A bias vector made a one-row array and that row repeated down `M` rows, both by `broadcast_in_dim`: entry `(p, q)`
    is the bias entry `q`. -/
theorem rows_of_vector_apply {α : Type} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![1, N]⟩ ![1] h1 b) (ix2 p q) = b (ix1 q) := by
  have hq : q.val < N := q.isLt
  rw [broadcastInDim_apply ![0, 1] h2 _ (ix2 p q) (ix2 (0 : Fin 1) q) (fun a => by
        match a with
        | ⟨0, _⟩ => show (0 : Nat) = if (1 : Nat) = 1 then 0 else p.val; rw [if_pos rfl]
        | ⟨1, _⟩ => show q.val = if N = 1 then 0 else q.val; by_cases h : N = 1 <;> simp only [h, if_true, if_false, ite_true, ite_false] <;> omega),
    broadcastInDim_apply ![1] h1 b (ix2 (0 : Fin 1) q) (ix1 q) (fun a => by
        match a with
        | ⟨0, _⟩ => show q.val = if N = 1 then 0 else q.val; by_cases h : N = 1 <;> simp only [h, if_true, if_false, ite_true, ite_false] <;> omega)]

/-- Adding that array of repeated bias rows is `addRow`. -/
theorem addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf y (broadcastInDim ⟨2, ![M, N]⟩ ![0, 1] h2 (broadcastInDim ⟨2, ![1, N]⟩ ![1] h1 b)) = addRow y b := by
  funext i
  obtain ⟨p, q, rfl⟩ : ∃ (p : Fin M) (q : Fin N), i = ix2 p q := ⟨i 0, i 1, eq_ix2 i⟩
  rw [addf_apply, rows_of_vector_apply b h1 h2 p q]
  rfl

/-- Its positive part against an array of zeros is `reluRow`. -/
theorem maximumf_addf_rows_of_vector (y : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (z : FVec Ideal ⟨2, ![M, N]⟩ .f32) (hz : ∀ i, z i = 0) :
    maximumf (addf y (broadcastInDim ⟨2, ![M, N]⟩ ![0, 1] h2 (broadcastInDim ⟨2, ![1, N]⟩ ![1] h1 b))) z = reluRow y b := by
  rw [addf_rows_of_vector y b h1 h2]
  funext i
  rw [maximumf_apply, hz i]
  rfl

end Cert.Layers

end
-- ==== Proof.LibRowTile.lean ====
import Idealize.ShloMosaic.Lib.ValueIdx
import Idealize.ShloMosaic.Lib.ValueLayout
import Idealize.ShloMosaic.Lib.Pipeline.Value
import Idealize.ShloMosaic.PureOps.Ideal.Laws
import proofs.«122503_j82377472737678_1_alg».proof.Proof.LibPlainDot
import proofs.«122503_j82377472737678_1_alg».proof.Proof.LibRowLayers

/-!
# Dense layers computed one tile of rows at a time

The three dense steps `rowsTimes`, `addRow`, `reluRow` produce row `r` of their result from row `r` of their first
operand alone. So a tile of `T` rows whose row `p` is row `r` of an `[M, K]` array yields, in its row `p`, row `r` of what
the same step yields on the whole array (`rowsTimes_row`, `addRow_row`, `reluRow_row`).

The bias may arrive as a one-row array `[1, N]` instead of a vector: `rowVec` names its row as a vector, and the vector
unit's spelling of "add the row to every row of the tile" and "then keep the positive part" are `addRow` / `reluRow` of
that vector at the ideal instance, for any number of rows (`addf_bcastRow`, `maximumf_addf_bcastRow`). A change of float
format is the identity there (`truncf_eq`). A vector stood up as a one-row array has that vector as its row
(`rowVec_shapeCast`).
-/

noncomputable section

namespace Cert.RowTile

open Idealize.ShloMosaic Idealize.ShloMosaic.ValueIdx Cert.Layers
open scoped BigOperators

variable {M T K N : Nat}

/-- Row `p` of a product of a tile is row `r` of the product of the whole array, when the tile's row `p` is the
    array's row `r`. -/
theorem rowsTimes_row (A : (⟨2, ![M, K]⟩ : Shape).Idx → EReal) (At : (⟨2, ![T, K]⟩ : Shape).Idx → EReal)
    (w : (⟨2, ![K, N]⟩ : Shape).Idx → EReal) (p : Fin T) (r : Fin M)
    (h : ∀ k : Fin K, At (ix2 p k) = A (ix2 r k)) (q : Fin N) :
    rowsTimes At w (ix2 p q) = rowsTimes A w (ix2 r q) := by
  rw [rowsTimes_apply, rowsTimes_apply]
  exact Finset.sum_congr rfl fun k _ => by rw [h k]

/-- The same for the bias step. -/
theorem addRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : addRow yt b (ix2 p q) = addRow y b (ix2 r q) := by
  rw [addRow_apply, addRow_apply, h]

/-- The same for the bias step followed by the positive part. -/
theorem reluRow_row (y : (⟨2, ![M, N]⟩ : Shape).Idx → EReal) (yt : (⟨2, ![T, N]⟩ : Shape).Idx → EReal)
    (b : (⟨1, ![N]⟩ : Shape).Idx → EReal) (p : Fin T) (r : Fin M) (q : Fin N)
    (h : yt (ix2 p q) = y (ix2 r q)) : reluRow yt b (ix2 p q) = reluRow y b (ix2 r q) := by
  rw [reluRow_apply, reluRow_apply, h]

/-- The one row of a `[1, N]` array, as a vector. -/
def rowVec (b : (⟨2, ![1, N]⟩ : Shape).Idx → EReal) : (⟨1, ![N]⟩ : Shape).Idx → EReal :=
  fun i => b (ix2 (0 : Fin 1) (i 0))

theorem rowVec_apply (b : (⟨2, ![1, N]⟩ : Shape).Idx → EReal) (q : Fin N) : rowVec b (ix1 q) = b (ix2 (0 : Fin 1) q) := rfl

/-- A vector stood up as a one-row array has the vector as its row. -/
theorem rowVec_shapeCast (b : (⟨1, ![N]⟩ : Shape).Idx → EReal) (hc : (⟨1, ![N]⟩ : Shape).ShapeCasts ⟨2, ![1, N]⟩) :
    rowVec (shapeCast ⟨2, ![1, N]⟩ b hc) = b := by
  funext i
  obtain ⟨q, rfl⟩ : ∃ q : Fin N, i = ix1 q := ⟨i 0, eq_ix1 i⟩
  exact shapeCast_a_1a_apply b hc (0 : Fin 1) q

/-- At the ideal instance a change of float format leaves every entry as it is. -/
theorem truncf_eq {s : Shape} {φ ψ : FTy} (a : FVec Ideal s φ) (h : ψ.bits < φ.bits) :
    (truncf ψ a h : FVec Ideal s ψ) = a := rfl

/-- The vector unit's "add the one-row array to every row of the tile" is `addRow` of that row. -/
theorem addf_bcastRow (y : FVec Ideal ⟨2, ![M, N]⟩ .f32) (brow : FVec Ideal ⟨2, ![1, N]⟩ .f32)
    (hb : (⟨2, ![1, N]⟩ : Shape).Broadcasts ⟨2, ![M, N]⟩) :
    addf y (broadcastTo ⟨2, ![M, N]⟩ brow hb) = addRow y (rowVec brow) := by
  funext i
  obtain ⟨p, q, rfl⟩ : ∃ (p : Fin M) (q : Fin N), i = ix2 p q := ⟨i 0, i 1, eq_ix2 i⟩
  rw [addf_apply, broadcastTo_1b_ab_apply brow hb p q]
  rfl

/-- Followed by the maximum with a tile of zeros it is `reluRow` of that row. -/
theorem maximumf_addf_bcastRow (y : FVec Ideal ⟨2, ![M, N]⟩ .f32) (brow : FVec Ideal ⟨2, ![1, N]⟩ .f32)
    (hb : (⟨2, ![1, N]⟩ : Shape).Broadcasts ⟨2, ![M, N]⟩) :
    maximumf (addf y (broadcastTo ⟨2, ![M, N]⟩ brow hb))
        (broadcast ⟨2, ![M, N]⟩ (Scalar.ofBits (F := Ideal) .f32 0x00000000#32))
      = reluRow y (rowVec brow) := by
  rw [addf_bcastRow y brow hb]
  funext i
  rw [maximumf_apply, broadcast_apply]
  show max _ (Ideal.ofBits .f32 0x00000000#32) = _
  rw [Ideal.ofBits_zero_f32]
  rfl

end Cert.RowTile

end
-- ==== Proof.LibCombine.lean ====
import Idealize.ShloMosaic.Lib.ValueIdx
import Idealize.ShloMosaic.Lib.ValueLayout
import Idealize.ShloMosaic.Lib.Pipeline.Value
import Idealize.ShloMosaic.PureOps.Ideal.Laws
import proofs.«122503_j82377472737678_1_alg».proof.Proof.LibPlainDot
import proofs.«122503_j82377472737678_1_alg».proof.Proof.LibRowLayers
import proofs.«122503_j82377472737678_1_alg».proof.Proof.LibRowTile

/-!
# The dense step of a mean-aggregating graph layer

A layer takes the node features `x : [M, K]` and the neighbour means `a : [M, K]` and returns, at node `r` and output
feature `q`,

  `(∑ k, a (r, k) · wl (k, q)) + (∑ k, x (r, k) · wr (k, q)) + b q`,

in the hidden layer followed by the positive part. Entry `(r, q)` depends on row `r` of `a` and of `x` only, so a
tile of rows computed by itself holds the rows the whole array would hold (`relu_tile`, `lin_tile`): no sum is
regrouped and nothing is cancelled, so the equalities hold over the extended reals whatever the entries are.

The vector unit spells the step on a tile as two products into zero accumulators, their sum, a one-row bias array
repeated down the tile, and a maximum with zeros (`unit_relu`, `unit_lin`); the host spells it on the whole array as
two `dot_general`s, their sum, the bias vector made rows, and a maximum with an array of zeros (`host_relu`,
`host_lin`). Any `M`, `T`, `K`, `N`.
-/

noncomputable section

namespace Cert.Combine

open Idealize.ShloMosaic Idealize.ShloMosaic.ValueIdx Cert.Layers Cert.RowTile
open scoped BigOperators

variable {M T K N : Nat}

/-- The neighbour part plus the self part: entry `(r, q)` is `∑ k, a (r, k) · wl (k, q) + ∑ k, x (r, k) · wr (k, q)`. -/
def twoProducts (a x : (⟨2, ![M, K]⟩ : Shape).Idx → EReal) (wl wr : (⟨2, ![K, N]⟩ : Shape).Idx → EReal) :
    (⟨2, ![M, N]⟩ : Shape).Idx → EReal :=
  fun i => rowsTimes a wl i + rowsTimes x wr i

theorem twoProducts_apply (a x : (⟨2, ![M, K]⟩ : Shape).Idx → EReal) (wl wr : (⟨2, ![K, N]⟩ : Shape).Idx → EReal)
    (p : Fin M) (q : Fin N) :
    twoProducts a x wl wr (ix2 p q) = rowsTimes a wl (ix2 p q) + rowsTimes x wr (ix2 p q) := rfl

/-- Row `p` of the two products of a tile is row `r` of the two products of the whole arrays, when the tiles' rows
    `p` are the arrays' rows `r`. -/
theorem twoProducts_row (a x : (⟨2, ![M, K]⟩ : Shape).Idx → EReal) (aT xT : (⟨2, ![T, K]⟩ : Shape).Idx → EReal)
    (wl wr : (⟨2, ![K, N]⟩ : Shape).Idx → EReal) (p : Fin T) (r : Fin M)
    (ha : ∀ k : Fin K, aT (ix2 p k) = a (ix2 r k)) (hx : ∀ k : Fin K, xT (ix2 p k) = x (ix2 r k)) (q : Fin N) :
    twoProducts aT xT wl wr (ix2 p q) = twoProducts a x wl wr (ix2 r q) := by
  rw [twoProducts_apply, twoProducts_apply, rowsTimes_row a aT wl p r ha q, rowsTimes_row x xT wr p r hx q]

/-- The hidden layer's step on a tile is the whole array's step read at the tile's rows. -/
theorem relu_tile (a x : (⟨2, ![M, K]⟩ : Shape).Idx → EReal) (aT xT : (⟨2, ![T, K]⟩ : Shape).Idx → EReal)
    (wl wr : (⟨2, ![K, N]⟩ : Shape).Idx → EReal) (b : (⟨1, ![N]⟩ : Shape).Idx → EReal) (p : Fin T) (r : Fin M)
    (ha : ∀ k : Fin K, aT (ix2 p k) = a (ix2 r k)) (hx : ∀ k : Fin K, xT (ix2 p k) = x (ix2 r k)) (q : Fin N) :
    reluRow (twoProducts aT xT wl wr) b (ix2 p q) = reluRow (twoProducts a x wl wr) b (ix2 r q) :=
  reluRow_row _ _ b p r q (twoProducts_row a x aT xT wl wr p r ha hx q)

/-- The same for the output layer's step (no positive part). -/
theorem lin_tile (a x : (⟨2, ![M, K]⟩ : Shape).Idx → EReal) (aT xT : (⟨2, ![T, K]⟩ : Shape).Idx → EReal)
    (wl wr : (⟨2, ![K, N]⟩ : Shape).Idx → EReal) (b : (⟨1, ![N]⟩ : Shape).Idx → EReal) (p : Fin T) (r : Fin M)
    (ha : ∀ k : Fin K, aT (ix2 p k) = a (ix2 r k)) (hx : ∀ k : Fin K, xT (ix2 p k) = x (ix2 r k)) (q : Fin N) :
    addRow (twoProducts aT xT wl wr) b (ix2 p q) = addRow (twoProducts a x wl wr) b (ix2 r q) :=
  addRow_row _ _ b p r q (twoProducts_row a x aT xT wl wr p r ha hx q)

/-- The sum of two products into zero accumulators is `twoProducts`. -/
theorem addf_matmuls (d : DotDims ⟨2, ![T, K]⟩ ⟨2, ![K, N]⟩ ⟨2, ![T, N]⟩) (hd : LibPlainDot.Plain d)
    (aT xT : FVec Ideal ⟨2, ![T, K]⟩ .f32) (wl wr : FVec Ideal ⟨2, ![K, N]⟩ .f32) :
    addf (matmul d none aT wl (constant ⟨2, ![T, N]⟩ .f32 0x00000000#32))
        (matmul d none xT wr (constant ⟨2, ![T, N]⟩ .f32 0x00000000#32))
      = twoProducts aT xT wl wr := by
  have e1 : matmul d none aT wl (constant ⟨2, ![T, N]⟩ .f32 0x00000000#32) = rowsTimes aT wl :=
    matmul_zero_eq d hd none aT wl
  have e2 : matmul d none xT wr (constant ⟨2, ![T, N]⟩ .f32 0x00000000#32) = rowsTimes xT wr :=
    matmul_zero_eq d hd none xT wr
  rw [e1, e2]
  funext i
  rw [addf_apply]
  rfl

/-- The sum of two host products is `twoProducts`. -/
theorem addf_dotGenerals (d : DotDims ⟨2, ![M, K]⟩ ⟨2, ![K, N]⟩ ⟨2, ![M, N]⟩) (hd : LibPlainDot.Plain d)
    (a x : FVec Ideal ⟨2, ![M, K]⟩ .f32) (wl wr : FVec Ideal ⟨2, ![K, N]⟩ .f32) :
    addf (Host.dotGeneral d none a wl) (Host.dotGeneral d none x wr) = twoProducts a x wl wr := by
  have e1 : Host.dotGeneral d none a wl = rowsTimes a wl := dotGeneral_eq d hd none .single a wl
  have e2 : Host.dotGeneral d none x wr = rowsTimes x wr := dotGeneral_eq d hd none .single x wr
  rw [e1, e2]
  funext i
  rw [addf_apply]
  rfl

/-- The vector unit's hidden-layer step on a tile: products of the tile's rows, the one-row bias array repeated down
    the tile, the maximum with zeros. (The shape casts are of a shape to itself.) -/
theorem unit_relu (d : DotDims ⟨2, ![T, K]⟩ ⟨2, ![K, N]⟩ ⟨2, ![T, N]⟩) (hd : LibPlainDot.Plain d)
    (aT xT : FVec Ideal ⟨2, ![T, K]⟩ .f32) (wl wr : FVec Ideal ⟨2, ![K, N]⟩ .f32) (brow : FVec Ideal ⟨2, ![1, N]⟩ .f32)
    (hs : (⟨2, ![T, K]⟩ : Shape).ShapeCasts ⟨2, ![T, K]⟩) (hs1 : (⟨2, ![1, N]⟩ : Shape).ShapeCasts ⟨2, ![1, N]⟩)
    (hb : (⟨2, ![1, N]⟩ : Shape).Broadcasts ⟨2, ![T, N]⟩) :
    maximumf
        (addf (addf (matmul d none (shapeCast ⟨2, ![T, K]⟩ aT hs) wl (constant ⟨2, ![T, N]⟩ .f32 0x00000000#32))
                    (matmul d none xT wr (constant ⟨2, ![T, N]⟩ .f32 0x00000000#32)))
              (broadcastTo ⟨2, ![T, N]⟩ (shapeCast ⟨2, ![1, N]⟩ brow hs1) hb))
        (broadcast ⟨2, ![T, N]⟩ (Scalar.ofBits (F := Ideal) .f32 0x00000000#32))
      = reluRow (twoProducts aT xT wl wr) (rowVec brow) := by
  rw [shapeCast_self, shapeCast_self, addf_matmuls d hd]
  exact maximumf_addf_bcastRow _ brow hb

/-- The vector unit's output-layer step on a tile (both tiles pass through a shape cast to their own shape). -/
theorem unit_lin (d : DotDims ⟨2, ![T, K]⟩ ⟨2, ![K, N]⟩ ⟨2, ![T, N]⟩) (hd : LibPlainDot.Plain d)
    (aT xT : FVec Ideal ⟨2, ![T, K]⟩ .f32) (wl wr : FVec Ideal ⟨2, ![K, N]⟩ .f32) (brow : FVec Ideal ⟨2, ![1, N]⟩ .f32)
    (hs : (⟨2, ![T, K]⟩ : Shape).ShapeCasts ⟨2, ![T, K]⟩) (hs1 : (⟨2, ![1, N]⟩ : Shape).ShapeCasts ⟨2, ![1, N]⟩)
    (hb : (⟨2, ![1, N]⟩ : Shape).Broadcasts ⟨2, ![T, N]⟩) :
    addf (addf (matmul d none (shapeCast ⟨2, ![T, K]⟩ aT hs) wl (constant ⟨2, ![T, N]⟩ .f32 0x00000000#32))
               (matmul d none (shapeCast ⟨2, ![T, K]⟩ xT hs) wr (constant ⟨2, ![T, N]⟩ .f32 0x00000000#32)))
         (broadcastTo ⟨2, ![T, N]⟩ (shapeCast ⟨2, ![1, N]⟩ brow hs1) hb)
      = addRow (twoProducts aT xT wl wr) (rowVec brow) := by
  rw [shapeCast_self, shapeCast_self, shapeCast_self, addf_matmuls d hd]
  exact addf_bcastRow _ brow hb

/-- A scalar zero word repeated over an array reads zero everywhere. -/
theorem zeros_apply {s : Shape} (h0 : (⟨0, ![]⟩ : Shape).BroadcastsInDim s (![] : Fin 0 → Fin s.rank)) (i : s.Idx) :
    broadcastInDim s ![] h0 (constant (F := Ideal) ⟨0, ![]⟩ .f32 0x00000000#32) i = (0 : EReal) := by
  rw [broadcastInDim_apply ![] h0 _ i ix0 (fun a => a.elim0)]
  show Ideal.ofBits .f32 0x00000000#32 = 0
  exact Ideal.ofBits_zero_f32

/-- The host's hidden-layer step on the whole array. -/
theorem host_relu (d : DotDims ⟨2, ![M, K]⟩ ⟨2, ![K, N]⟩ ⟨2, ![M, N]⟩) (hd : LibPlainDot.Plain d)
    (a x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf
        (addf (addf (Host.dotGeneral d none a wl) (Host.dotGeneral d none x wr))
              (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluRow (twoProducts a x wl wr) b := by
  rw [addf_dotGenerals d hd]
  exact maximumf_addf_rows_of_vector _ b h1 h2 _ (zeros_apply h0)

/-- The host's output-layer step on the whole array. -/
theorem host_lin (d : DotDims ⟨2, ![M, K]⟩ ⟨2, ![K, N]⟩ ⟨2, ![M, N]⟩) (hd : LibPlainDot.Plain d)
    (a x : FVec Ideal ⟨2, ![M, K]⟩ .f32) (wl wr : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (addf (Host.dotGeneral d none a wl) (Host.dotGeneral d none x wr))
         (broadcastInDim ⟨2, ![M, N]⟩ ![0, 1] h2 (broadcastInDim ⟨2, ![1, N]⟩ ![1] h1 b))
      = addRow (twoProducts a x wl wr) b := by
  rw [addf_dotGenerals d hd]
  exact addf_rows_of_vector _ b h1 h2

end Cert.Combine

end
-- ==== Proof.RegionHidden.lean ====
import proofs.«122503_j82377472737678_1_alg».proof.Proof.Gen.KernelIdeal.Frame
import proofs.«122503_j82377472737678_1_alg».proof.Proof.LibCombine
import Idealize.ShloMosaic.Lib.Pipeline.Value

/-!
# The hidden layer's pallas_call: what it leaves in its output array

The first pallas_call runs the layer's dense step one tile of 5000 node rows at a time, over ten grid points; the two
weight matrices and the one-row bias array are the same block at every point. Entry `(r, q)` of the step depends on
row `r` of the neighbour means and of the node features only, so the tile a point stores is the corresponding rows of
the step taken on the whole 50000-row arrays, and the ten tiles fill the output array: after the region it holds
`max (∑ k, mean (r, k) · wl (k, q) + ∑ k, x (r, k) · wr (k, q) + b q) 0` at `(r, q)`, of the arrays as the region
found them.
-/

set_option maxRecDepth 16384

noncomputable section

namespace Cert.KernelIdeal.Hidden

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowTile Cert.Combine

-- the TensorCore's buffer contents when the region is entered
variable (V : (c : Dev nD) → (b : Ref sig .tc) → Buf (Elt Ideal) ((c : Thread nD τ).loc b))

/-- The tile products contract the tile's columns with the weights' rows. -/
theorem plain : LibPlainDot.Plain dot_S5000x128_S128x128_S5000x128_1_0_0_1_n_n := ⟨rfl, rfl, rfl, rfl, rfl, rfl⟩

/-- The layer's dense step on the whole node array, of the arrays as the region finds them: the neighbour means,
    the node features, the two weight matrices and the bias row. -/
def whole (c : Dev nD) : S50000x128.Idx → EReal :=
  reluRow (twoProducts (V c main_v22) (V c main_arg0) (V c main_arg2) (V c main_arg3)) (rowVec (V c main_v23))

/-- The body's stored value is the dense step on the tiles it loaded. -/
theorem pay_eq (x0 x1 : Vec Ideal S5000x128 .f32) (x2 x3 : Vec Ideal S128x128 .f32) (x4 : Vec Ideal S1x128 .f32) :
    k0_pay1 x0 x1 x2 x3 x4 = reluRow (twoProducts x0 x1 x2 x3) (rowVec x4) :=
  unit_relu dot_S5000x128_S128x128_S5000x128_1_0_0_1_n_n plain x0 x1 x2 x3 x4
    shapeCasts_S5000x128_S5000x128 shapeCasts_S1x128_S1x128 broadcasts_S1x128_S5000x128

/-- One entry of the stored tile against one entry of the whole array's step: equal when the tile's row is the
    array's row, the weights and the bias row are the arrays' own, and the two entries are in the same column. -/
theorem point_eq (A X : S50000x128.Idx → EReal) (Wl Wr : S128x128.Idx → EReal) (B : S1x128.Idx → EReal)
    (x0 x1 : Vec Ideal S5000x128 .f32) (x2 x3 : Vec Ideal S128x128 .f32) (x4 : Vec Ideal S1x128 .f32)
    (y : S5000x128.Idx) (i : S50000x128.Idx)
    (h0 : ∀ k : Fin 128, x0 (ix2 (y 0) k) = A (ix2 (i 0) k))
    (h1 : ∀ k : Fin 128, x1 (ix2 (y 0) k) = X (ix2 (i 0) k))
    (h2 : x2 = Wl) (h3 : x3 = Wr) (h4 : x4 = B) (hq : i 1 = y 1) :
    k0_pay1 x0 x1 x2 x3 x4 y = reluRow (twoProducts A X Wl Wr) (rowVec B) i := by
  subst h2 h3 h4
  rw [pay_eq]
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := hq
  exact relu_tile A X x0 x1 x2 x3 (rowVec x4) p r h0 h1 q'

/-- The printed index maps, decided over the grid: the two row-tiled inputs move with the output's block, the
    weights' and the bias row's blocks stay at the origin, and the output's block index is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every block of rows is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of the whole array's step. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x128) zeros2,
    View.ld_unit_zero (S := S1x128) zeros2]
  obtain ⟨e0, e1, e2, e3, e4, e5, e6, e7, e8, e9, e10, e11⟩ := idx_facts t
  funext j
  have hj0 : (j 0).val < 5000 := (j 0).isLt
  have hj1 : (j 1).val < 128 := (j 1).isLt
  refine point_eq (V c main_v22) (V c main_arg0) (V c main_arg2) (V c main_arg3) (V c main_v23)
    (iblk0 V c 0 t) (iblk0 V c 1 t) (iblk0 V c 2 t) (iblk0 V c 3 t) (iblk0 V c 4 t)
    j (((cfg0.win 5).blk t).view.emb j) ?_ ?_ ?_ ?_ ?_ ?_
  · intro k
    show V c main_v22 (((cfg0.win 0).blk t).view.emb (ix2 (j 0) k)) = V c main_v22 (ix2 (((cfg0.win 5).blk t).view.emb j 0) k)
    refine congrArg (V c main_v22) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_arg0 (((cfg0.win 1).blk t).view.emb (ix2 (j 0) k)) = V c main_arg0 (ix2 (((cfg0.win 5).blk t).view.emb j 0) k)
    refine congrArg (V c main_arg0) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg3 (((cfg0.win 3).blk t).view.emb y) = V c main_arg3 y
    refine congrArg (V c main_arg3) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v23 (((cfg0.win 4).blk t).view.emb y) = V c main_v23 y
    refine congrArg (V c main_v23) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · refine Fin.ext ?_
    show win0_5.index t (1 : Fin 2) * 128 + 1 * (j 1).val = (j 1).val
    omega

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The ten blocks of 5000 rows tile the 50000 rows: row `r` is in the block of point `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the whole array's step of the arrays as the region found them. -/
theorem final (c : Dev nD) : (dat0 V c).arrAt 5 cfg0.N = whole V c :=
  (dat0 V c).arrAt_eq_of_cover 5 (whole V c) (fun t _ => flushed_eq V c t) cover

end Cert.KernelIdeal.Hidden

end
-- ==== Proof.RegionOutput.lean ====
import proofs.«122503_j82377472737678_1_alg».proof.Proof.Gen.KernelIdeal.Frame
import proofs.«122503_j82377472737678_1_alg».proof.Proof.LibCombine
import Idealize.ShloMosaic.Lib.Pipeline.Value

/-!
# The output layer's pallas_call: what it leaves in its output array

The second pallas_call runs the output layer's dense step one tile of 5000 rows at a time, over ten grid points, on the
neighbour means of the hidden features and the hidden features themselves; the two weight matrices and the one-row
bias array are the same block at every point. Entry `(r, q)` of the step depends on row `r` of its two row-tiled
operands only, so the tile a point stores is the corresponding rows of the step taken on the whole 50000-row arrays,
and the ten tiles fill the output array: after the region it holds
`∑ k, mean (r, k) · wl (k, q) + ∑ k, h (r, k) · wr (k, q) + b q` at `(r, q)`, of the arrays as the region found them.
-/

set_option maxRecDepth 16384

noncomputable section

namespace Cert.KernelIdeal.Output

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Layers Cert.RowTile Cert.Combine

-- the TensorCore's buffer contents when the region is entered
variable (V : (c : Dev nD) → (b : Ref sig .tc) → Buf (Elt Ideal) ((c : Thread nD τ).loc b))

/-- The tile products contract the tile's columns with the weights' rows. -/
theorem plain : LibPlainDot.Plain dot_S5000x128_S128x128_S5000x128_1_0_0_1_n_n := ⟨rfl, rfl, rfl, rfl, rfl, rfl⟩

/-- The layer's dense step on the whole node array, of the arrays as the region finds them: the neighbour means,
    the node features, the two weight matrices and the bias row. -/
def whole (c : Dev nD) : S50000x128.Idx → EReal :=
  addRow (twoProducts (V c main_v43) (V c main_v24) (V c main_arg5) (V c main_arg6)) (rowVec (V c main_v44))

/-- The body's stored value is the dense step on the tiles it loaded. -/
theorem pay_eq (x0 x1 : Vec Ideal S5000x128 .f32) (x2 x3 : Vec Ideal S128x128 .f32) (x4 : Vec Ideal S1x128 .f32) :
    k1_pay1 x0 x1 x2 x3 x4 = addRow (twoProducts x0 x1 x2 x3) (rowVec x4) :=
  unit_lin dot_S5000x128_S128x128_S5000x128_1_0_0_1_n_n plain x0 x1 x2 x3 x4
    shapeCasts_S5000x128_S5000x128 shapeCasts_S1x128_S1x128 broadcasts_S1x128_S5000x128

/-- One entry of the stored tile against one entry of the whole array's step: equal when the tile's row is the
    array's row, the weights and the bias row are the arrays' own, and the two entries are in the same column. -/
theorem point_eq (A X : S50000x128.Idx → EReal) (Wl Wr : S128x128.Idx → EReal) (B : S1x128.Idx → EReal)
    (x0 x1 : Vec Ideal S5000x128 .f32) (x2 x3 : Vec Ideal S128x128 .f32) (x4 : Vec Ideal S1x128 .f32)
    (y : S5000x128.Idx) (i : S50000x128.Idx)
    (h0 : ∀ k : Fin 128, x0 (ix2 (y 0) k) = A (ix2 (i 0) k))
    (h1 : ∀ k : Fin 128, x1 (ix2 (y 0) k) = X (ix2 (i 0) k))
    (h2 : x2 = Wl) (h3 : x3 = Wr) (h4 : x4 = B) (hq : i 1 = y 1) :
    k1_pay1 x0 x1 x2 x3 x4 y = addRow (twoProducts A X Wl Wr) (rowVec B) i := by
  subst h2 h3 h4
  rw [pay_eq]
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := hq
  exact lin_tile A X x0 x1 x2 x3 (rowVec x4) p r h0 h1 q'

/-- The printed index maps, decided over the grid: the two row-tiled inputs move with the output's block, the
    weights' and the bias row's blocks stay at the origin, and the output's block index is the point's number. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every block of rows is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of the whole array's step. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2,
    View.ld_unit_zero (S := S1x128) zeros2]
  obtain ⟨e0, e1, e2, e3, e4, e5, e6, e7, e8, e9, e10, e11⟩ := idx_facts t
  funext j
  have hj0 : (j 0).val < 5000 := (j 0).isLt
  have hj1 : (j 1).val < 128 := (j 1).isLt
  refine point_eq (V c main_v43) (V c main_v24) (V c main_arg5) (V c main_arg6) (V c main_v44)
    (iblk1 V c 0 t) (iblk1 V c 1 t) (iblk1 V c 2 t) (iblk1 V c 3 t) (iblk1 V c 4 t)
    j (((cfg1.win 5).blk t).view.emb j) ?_ ?_ ?_ ?_ ?_ ?_
  · intro k
    show V c main_v43 (((cfg1.win 0).blk t).view.emb (ix2 (j 0) k)) = V c main_v43 (ix2 (((cfg1.win 5).blk t).view.emb j 0) k)
    refine congrArg (V c main_v43) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v24 (((cfg1.win 1).blk t).view.emb (ix2 (j 0) k)) = V c main_v24 (ix2 (((cfg1.win 5).blk t).view.emb j 0) k)
    refine congrArg (V c main_v24) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · funext y
    show V c main_v44 (((cfg1.win 4).blk t).view.emb y) = V c main_v44 y
    refine congrArg (V c main_v44) (funext fun a => Fin.ext ?_)
    match a with
    | ⟨0, _⟩ => show win1_4.index t (0 : Fin 2) * 1 + 1 * (y 0).val = (y 0).val; omega
    | ⟨1, _⟩ => show win1_4.index t (1 : Fin 2) * 128 + 1 * (y 1).val = (y 1).val; omega
  · refine Fin.ext ?_
    show win1_5.index t (1 : Fin 2) * 128 + 1 * (j 1).val = (j 1).val
    omega

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The ten blocks of 5000 rows tile the 50000 rows: row `r` is in the block of point `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the whole array's step of the arrays as the region found them. -/
theorem final (c : Dev nD) : (dat1 V c).arrAt 5 cfg1.N = whole V c :=
  (dat1 V c).arrAt_eq_of_cover 5 (whole V c) (fun t _ => flushed_eq V c t) cover

end Cert.KernelIdeal.Output

end
-- ==== Proof.Reference.lean ====
import proofs.«122503_j82377472737678_1_alg».proof.Proof.Gen.ReferenceIdeal.Run
import proofs.«122503_j82377472737678_1_alg».proof.Proof.LibCombine

/-!
# The reference: two mean-aggregating layers

The reference computes, for node features `x`, an edge list `e` (row 0 the sources, row 1 the targets) and per layer
two weight matrices and a bias,

  `h   = max (mean (x) · wl0 + x · wr0 + b0) 0`,   `out = mean (h) · wl1 + h · wr1 + b1`,

where `mean (z)` at node `r` is the sum of the rows `z (src j)` over the edges `j` with target `r`, divided by
`max (number of such edges) 1`. The aggregation `mean` is spelt by the same host operations in the kernel's program
and in the reference, so it is named here once (`meanAgg`) and never opened: only its being the same function of the
same arrays on both sides is used. With it the reference's result is the output layer's dense step of the hidden
layer's (`result_eq`), each dense step the whole-array function of `Cert.Combine`.
-/

set_option maxRecDepth 8192

noncomputable section

namespace Cert.ReferenceIdeal.Layers2

open Idealize.ShloMosaic Idealize.ShloMosaic.TcCoe Idealize.SL.Sem
open Cert.ReferenceIdeal Cert.ReferenceIdeal.Gen Cert.Layers Cert.Combine

/-- The edge sources: row 0 of the edge array, as a vector. -/
def srcOf (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- The edge targets: row 1 of the edge array, as a vector. -/
def dstOf (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The mean over incoming edges: the rows of `z` at the (wrapped) sources scatter-added at the targets into an array
    of zeros, divided by the number of incoming edges (ones scatter-added at the targets) or by one where there is none. -/
def meanAgg (z : FVec Ideal S50000x128 .f32) (s d : (⟨S800000, .i32⟩ : BufTy).Contents (Elt Ideal)) :
    FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 d)
      (Host.gather gather_S50000x128_S800000x1_S800000x128_1_0_n_n_0_1_1128 z
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s))))
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 d)
            (broadcastInDim S800000 ![] bcast_S_S800000 (constant (F := Ideal) S_ .f32 0x3F800000#32)))
          (broadcastInDim S50000 ![] bcast_S_S50000 (constant (F := Ideal) S_ .f32 0x3F800000#32)))))

/-- The products contract the features with the weights' rows. -/
theorem plain : LibPlainDot.Plain dot_S50000x128_S128x128_S50000x128_1_0_0_1_n_n := ⟨rfl, rfl, rfl, rfl, rfl, rfl⟩

/-- The hidden layer of node features `x` over the edges `(s, d)`. -/
def hidden (x : S50000x128.Idx → EReal) (s d : (⟨S800000, .i32⟩ : BufTy).Contents (Elt Ideal))
    (wl wr : S128x128.Idx → EReal) (b : S128.Idx → EReal) : S50000x128.Idx → EReal :=
  reluRow (twoProducts (meanAgg x s d) x wl wr) b

/-- The output layer of hidden features `h` over the edges `(s, d)`. -/
def output (h : S50000x128.Idx → EReal) (s d : (⟨S800000, .i32⟩ : BufTy).Contents (Elt Ideal))
    (wl wr : S128x128.Idx → EReal) (b : S128.Idx → EReal) : S50000x128.Idx → EReal :=
  addRow (twoProducts (meanAgg h s d) h wl wr) b

/-- The two layers of the arguments. -/
def network (x : S50000x128.Idx → EReal) (e : (⟨S2x800000, .i32⟩ : BufTy).Contents (Elt Ideal))
    (wl0 wr0 : S128x128.Idx → EReal) (b0 : S128.Idx → EReal) (wl1 wr1 : S128x128.Idx → EReal) (b1 : S128.Idx → EReal) :
    S50000x128.Idx → EReal :=
  output (hidden x (srcOf e) (dstOf e) wl0 wr0 b0) (srcOf e) (dstOf e) wl1 wr1 b1

/-- The host's spelling of the hidden layer's dense step, around any neighbour means. -/
theorem hidden_spelling (a x : S50000x128.Idx → EReal) (wl wr : S128x128.Idx → EReal) (b : S128.Idx → EReal) :
    maximumf
        (addf (addf (Host.dotGeneral (F := Ideal) (φ₁ := .f32) (φ₂ := .f32) dot_S50000x128_S128x128_S50000x128_1_0_0_1_n_n none a wl)
                    (Host.dotGeneral (F := Ideal) (φ₁ := .f32) (φ₂ := .f32) dot_S50000x128_S128x128_S50000x128_1_0_0_1_n_n none x wr))
              (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = reluRow (twoProducts a x wl wr) b :=
  host_relu dot_S50000x128_S128x128_S50000x128_1_0_0_1_n_n plain a x wl wr b bcast_S128_S1x128_1 bcast_S1x128_S50000x128_0_1
    bcast_S_S50000x128

/-- The host's spelling of the output layer's dense step. -/
theorem output_spelling (a x : S50000x128.Idx → EReal) (wl wr : S128x128.Idx → EReal) (b : S128.Idx → EReal) :
    addf (addf (Host.dotGeneral (F := Ideal) (φ₁ := .f32) (φ₂ := .f32) dot_S50000x128_S128x128_S50000x128_1_0_0_1_n_n none a wl)
               (Host.dotGeneral (F := Ideal) (φ₁ := .f32) (φ₂ := .f32) dot_S50000x128_S128x128_S50000x128_1_0_0_1_n_n none x wr))
         (broadcastInDim S50000x128 ![0, 1] bcast_S1x128_S50000x128_0_1 (broadcastInDim S1x128 ![1] bcast_S128_S1x128_1 b))
      = addRow (twoProducts a x wl wr) b :=
  host_lin dot_S50000x128_S128x128_S50000x128_1_0_0_1_n_n plain a x wl wr b bcast_S128_S1x128_1 bcast_S1x128_S50000x128_0_1

set_option maxRecDepth 65536 in
/-- The reference's result is the network of the arguments as launched. -/
theorem result_eq (m : (ℓ : Loc nD τ sig) → Buf (Elt Ideal) ℓ) (c : Dev nD) :
    Cert.ReferenceIdeal.Value.res_main_v54 (F := Ideal) m c
      = network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v54
  rw [hidden_spelling, output_spelling]
  rfl

end Cert.ReferenceIdeal.Layers2

end
-- ==== Proof.Through.lean ====
import proofs.«122503_j82377472737678_1_alg».proof.Proof.Gen.KernelIdeal.Frame
import proofs.«122503_j82377472737678_1_alg».proof.Proof.RegionHidden
import proofs.«122503_j82377472737678_1_alg».proof.Proof.RegionOutput
import proofs.«122503_j82377472737678_1_alg».proof.Proof.Reference
import Idealize.ShloMosaic.Lib.StableHlo.Run

/-!
# The kernel's program, segment by segment

Host operations, the hidden layer's pallas_call, host operations, the output layer's pallas_call. The first stretch
cuts the edge array into its sources and targets, takes the neighbour means of the node features and stands the first
bias up as a row; the first region leaves the hidden features (`Hidden.final`); the second stretch takes the
neighbour means of the hidden features over the SAME sources and targets and stands the second bias up as a row; the
second region leaves the result (`Output.final`). Read back through the four segments, the result buffer ends
holding the two-layer network of the launch arguments — the function the reference computes (`result`). The
neighbour means are the reference's own host operations on the same arrays and are never opened.
-/

set_option maxRecDepth 16384

noncomputable section

namespace Cert.KernelIdeal.Through

open Idealize.ShloMosaic Idealize.ShloMosaic.TcCoe Idealize.ShloMosaic.StableHlo Idealize.SL.Sem
open Cert.KernelIdeal Cert.KernelIdeal.Gen Cert.Layers Cert.RowTile Cert.Combine

variable (m : (ℓ : Loc nD τ sig) → Buf (Elt Ideal) ℓ) (ρ : Dev nD → PrngReg)

/-! ## What the hidden layer's region finds -/

/-- The edge sources, after the first stretch. -/
theorem src_entry (c : Dev nD) :
    W1 m ρ c (Proc.devRef .tc main_v1) = Cert.ReferenceIdeal.Layers2.srcOf (m ((c : Thread nD τ).loc main_arg1)) := by
  show StableHlo.after hostOps0 (W0 m ρ c) (Proc.devRef .tc main_v1) = _
  after_results_simp
  rfl

/-- The edge targets, after the first stretch. -/
theorem dst_entry (c : Dev nD) :
    W1 m ρ c (Proc.devRef .tc main_v3) = Cert.ReferenceIdeal.Layers2.dstOf (m ((c : Thread nD τ).loc main_arg1)) := by
  show StableHlo.after hostOps0 (W0 m ρ c) (Proc.devRef .tc main_v3) = _
  after_results_simp
  rfl

/-- The neighbour means of the node features. -/
theorem mean_entry (c : Dev nD) :
    V1 m ρ c main_v22 = Cert.ReferenceIdeal.Layers2.meanAgg (m ((c : Thread nD τ).loc main_arg0)) (Cert.ReferenceIdeal.Layers2.srcOf (m ((c : Thread nD τ).loc main_arg1))) (Cert.ReferenceIdeal.Layers2.dstOf (m ((c : Thread nD τ).loc main_arg1))) := by
  show StableHlo.after hostOps0 (W0 m ρ c) (Proc.devRef .tc main_v22) = _
  after_results_simp
  rfl

/-- The node features, the two weight matrices: as launched. -/
theorem x_entry (c : Dev nD) : V1 m ρ c main_arg0 = (m ((c : Thread nD τ).loc main_arg0)) := by
  show StableHlo.after hostOps0 (W0 m ρ c) (Proc.devRef .tc main_arg0) = _
  after_results_simp
theorem wl0_entry (c : Dev nD) : V1 m ρ c main_arg2 = (m ((c : Thread nD τ).loc main_arg2)) := by
  show StableHlo.after hostOps0 (W0 m ρ c) (Proc.devRef .tc main_arg2) = _
  after_results_simp
theorem wr0_entry (c : Dev nD) : V1 m ρ c main_arg3 = (m ((c : Thread nD τ).loc main_arg3)) := by
  show StableHlo.after hostOps0 (W0 m ρ c) (Proc.devRef .tc main_arg3) = _
  after_results_simp

/-- The first bias stood up as a one-row array. -/
theorem b0_entry (c : Dev nD) :
    V1 m ρ c main_v23 = shapeCast S1x128 (m ((c : Thread nD τ).loc main_arg4)) shapeCasts_S128_S1x128 := by
  show StableHlo.after hostOps0 (W0 m ρ c) (Proc.devRef .tc main_v23) = _
  after_results_simp
  rfl

/-! ## What the hidden layer's region leaves, and what the second stretch makes of it -/

/-- The hidden features: the hidden layer of the launch arguments. -/
theorem hidden_exit (c : Dev nD) :
    W2 m ρ c (Proc.devRef .tc main_v24)
      = Cert.ReferenceIdeal.Layers2.hidden (m ((c : Thread nD τ).loc main_arg0)) (Cert.ReferenceIdeal.Layers2.srcOf (m ((c : Thread nD τ).loc main_arg1))) (Cert.ReferenceIdeal.Layers2.dstOf (m ((c : Thread nD τ).loc main_arg1))) (m ((c : Thread nD τ).loc main_arg2)) (m ((c : Thread nD τ).loc main_arg3)) (m ((c : Thread nD τ).loc main_arg4)) := by
  refine (W2_arr m ρ c 5).trans ?_
  rw [Hidden.final (V1 m ρ) c]
  unfold Hidden.whole
  rw [mean_entry, x_entry, wl0_entry, wr0_entry, b0_entry, rowVec_shapeCast]
  rfl

/-- The sources and targets are untouched by the region. -/
theorem src_exit (c : Dev nD) : W2 m ρ c (Proc.devRef .tc main_v1) = Cert.ReferenceIdeal.Layers2.srcOf (m ((c : Thread nD τ).loc main_arg1)) :=
  (W2_of_ne m ρ c main_v1 (by decide)).trans (src_entry m ρ c)
theorem dst_exit (c : Dev nD) : W2 m ρ c (Proc.devRef .tc main_v3) = Cert.ReferenceIdeal.Layers2.dstOf (m ((c : Thread nD τ).loc main_arg1)) :=
  (W2_of_ne m ρ c main_v3 (by decide)).trans (dst_entry m ρ c)

/-- An argument the first region does not write is still as the first stretch left it, which is as launched. -/
theorem wl1_exit (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results_simp
theorem wr1_exit (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results_simp
theorem b1_exit (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results_simp

/-! ## What the output layer's region finds -/

/-- The neighbour means of the hidden features, over the same sources and targets. -/
theorem mean_entry1 (c : Dev nD) :
    V3 m ρ c main_v43 = Cert.ReferenceIdeal.Layers2.meanAgg (W2 m ρ c (Proc.devRef .tc main_v24)) (W2 m ρ c (Proc.devRef .tc main_v1))
      (W2 m ρ c (Proc.devRef .tc main_v3)) := by
  show StableHlo.after hostOps1 (W2 m ρ c) (Proc.devRef .tc main_v43) = _
  after_results_simp
  rfl

/-- The hidden features and the second layer's weights pass the second stretch unchanged. -/
theorem h_entry1 (c : Dev nD) : V3 m ρ c main_v24 = W2 m ρ c (Proc.devRef .tc main_v24) := by
  show StableHlo.after hostOps1 (W2 m ρ c) (Proc.devRef .tc main_v24) = _
  after_results_simp
theorem wl1_entry (c : Dev nD) : V3 m ρ c main_arg5 = W2 m ρ c (Proc.devRef .tc main_arg5) := by
  show StableHlo.after hostOps1 (W2 m ρ c) (Proc.devRef .tc main_arg5) = _
  after_results_simp
theorem wr1_entry (c : Dev nD) : V3 m ρ c main_arg6 = W2 m ρ c (Proc.devRef .tc main_arg6) := by
  show StableHlo.after hostOps1 (W2 m ρ c) (Proc.devRef .tc main_arg6) = _
  after_results_simp

/-- The second bias stood up as a one-row array. -/
theorem b1_entry (c : Dev nD) :
    V3 m ρ c main_v44 = shapeCast S1x128 (W2 m ρ c (Proc.devRef .tc main_arg7)) shapeCasts_S128_S1x128 := by
  show StableHlo.after hostOps1 (W2 m ρ c) (Proc.devRef .tc main_v44) = _
  after_results_simp
  rfl

/-! ## The result -/

/-- After the four segments the result buffer holds the two-layer network of the launch arguments. -/
theorem result (c : Dev nD) :
    W4 m ρ c (Proc.devRef .tc main_v45)
      = Cert.ReferenceIdeal.Layers2.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Output.final (V3 m ρ) c]
  unfold Output.whole
  rw [mean_entry1, h_entry1, wl1_entry, wr1_entry, b1_entry, rowVec_shapeCast,
    hidden_exit, src_exit, dst_exit, wl1_exit, wr1_exit, b1_exit]
  rfl

end Cert.KernelIdeal.Through

end
-- ==== Proof.lean ====
/-
  A two-layer mean-aggregating graph network on 50000 nodes with 128 features and 800000 edges: for each layer the
  neighbour means of the node rows (rows gathered at the edge sources, scatter-added at the edge targets, divided by
  the number of incoming edges or by one), then the dense step
      out (r, q) = ∑ k, mean (r, k) · wl (k, q) + ∑ k, x (r, k) · wr (k, q) + b q,
  with the positive part taken after the first layer only.

  The kernel's program takes the neighbour means on the host and runs each dense step as a pallas_call over ten tiles
  of 5000 rows; the reference takes the same neighbour means by the same host operations and each dense step as two
  whole-array products. Over the extended reals the two compute the same array: an entry of the dense step depends
  on its own row of the means and of the features only, so the ten stored tiles are the rows of the whole-array step
  (`Proof/RegionHidden.lean`, `Proof/RegionOutput.lean`, over `Proof/LibCombine.lean`); the matrix unit's product into
  a zero accumulator and the host's dot_general are the same plain sums; the bias reaches both as the same vector. No
  sum is regrouped and nothing is distributed or cancelled, so the precondition (finite inputs) is never opened. The
  neighbour means are one named function of the same arrays on both sides and are never opened
  (`Proof/Reference.lean`). `Proof/KernelRun.lean` states the kernel's run with its result buffer named,
  `Proof/Through.lean` reads that buffer back through the program's four segments.

  No operation of the kernel was rewritten when it was idealized, so `preserves_Kernel_KernelIdeal` is `True`.
-/
import proofs.«122503_j82377472737678_1_alg».proof.Defs
import proofs.«122503_j82377472737678_1_alg».proof.Proof.Gen.Kernel
import proofs.«122503_j82377472737678_1_alg».proof.Proof.Gen.Kernel.Skeleton
import proofs.«122503_j82377472737678_1_alg».proof.Proof.Gen.Kernel.Launch
import proofs.«122503_j82377472737678_1_alg».proof.Proof.Gen.Kernel.Points
import proofs.«122503_j82377472737678_1_alg».proof.Proof.Gen.Kernel.Frame
import proofs.«122503_j82377472737678_1_alg».proof.Proof.Gen.KernelIdeal
import proofs.«122503_j82377472737678_1_alg».proof.Proof.Gen.KernelIdeal.Skeleton
import proofs.«122503_j82377472737678_1_alg».proof.Proof.Gen.KernelIdeal.Launch
import proofs.«122503_j82377472737678_1_alg».proof.Proof.Gen.KernelIdeal.Points
import proofs.«122503_j82377472737678_1_alg».proof.Proof.Gen.KernelIdeal.Frame
import proofs.«122503_j82377472737678_1_alg».proof.Proof.Gen.ReferenceIdeal
import proofs.«122503_j82377472737678_1_alg».proof.Proof.Gen.ReferenceIdeal.Run
import proofs.«122503_j82377472737678_1_alg».proof.Proof.Gen.Pre_finite_inputs
import proofs.«122503_j82377472737678_1_alg».proof.Proof.KernelRun
import proofs.«122503_j82377472737678_1_alg».proof.Proof.Through
import proofs.«122503_j82377472737678_1_alg».proof.Proof.Reference
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the two-layer network of the arguments in their result buffer. -/
theorem algebraic : Cert.algebraic_KernelIdeal_ReferenceIdeal := by
  intro m ρ m' ρ' _ hagree
  refine ⟨fun c => Cert.ReferenceIdeal.Layers2.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Through.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Layers2.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
